-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S16x4096 .f32) (main_arg3 : FVec F S4096x16 .f32) (main_arg4 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S1024x512 : Shape := ⟨2, ![1024, 512]⟩
abbrev S16x512 : Shape := ⟨2, ![16, 512]⟩
abbrev S1x1024 : Shape := ⟨2, ![1, 1024]⟩
abbrev S1024x16 : Shape := ⟨2, ![1024, 16]⟩
abbrev S1024x1024 : Shape := ⟨2, ![1024, 1024]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S1x4096, .f32⟩
  | .hbm, ⟨10, _⟩ => ⟨S8192x4096, .f32⟩
  | .hbm, ⟨11, _⟩ => ⟨S2x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1x1024, .f32⟩
  | .local _ .vmem, ⟨7, _⟩ => ⟨S1x1024, .f32⟩
  | .local _ .vmem, ⟨8, _⟩ => ⟨S1024x16, .f32⟩
  | .local _ .vmem, ⟨9, _⟩ => ⟨S1024x16, .f32⟩
  | .local _ .vmem, ⟨10, _⟩ => ⟨S1024x1024, .f32⟩
  | .local _ .vmem, ⟨11, _⟩ => ⟨S1024x1024, .f32⟩
  | .local _ .vmem, ⟨12, _⟩ => ⟨S1024x16, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x4096x4096_S8192x4096 : S2x4096x4096.ShapeCasts S8192x4096
  bcast_S_S4096x16 : S_.BroadcastsInDim S4096x16 (![] : Fin 0 → Fin S4096x16.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x512_S16x512_S1024x16_1_1_0_0_n_n_wf : DotDims.WF S1024x512 S16x512 S1024x16 [1] [1] [0] [0] [] []
  dot_S1024x512_S1024x512_S1024x1024_1_1_0_0_n_n_wf : DotDims.WF S1024x512 S1024x512 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1x1x4096 : Shape := ⟨3, ![1, 1, 4096]⟩
abbrev S2x4096x16 : Shape := ⟨3, ![2, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S2x4096x4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S2x4096x16, .f32⟩
  | .hbm, ⟨10, _⟩ => ⟨S2x4096x4096, .f32⟩
  | .hbm, ⟨11, _⟩ => ⟨S_, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.Pieces.lean ====
/-
  What each control case of the kernel body leaves in the output tile's buffer and in the rank-16 accumulator, as the
  body's stored values applied to the blocks it loaded — at any float instance.

  The body runs in three cases along the contraction axis of the grid. At its first step it stores zero blocks into both
  accumulators, reads them back and adds this step's products; at a middle step it adds this step's products to what the
  step before left; at the last step it does the same and then adds, to the output tile, the bias row and the product of
  the (just updated) rank-16 accumulator with the scaled up-projection tile. Every store covers its whole buffer, so what
  a buffer holds after the body is its last store's value, and a load after a store reads that store's value.
-/
import proofs.«130091_j16561393893679_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-! ## A step in the middle of the contraction -/

/-- The output tile gains this step's products over what the step before left. -/
theorem out_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : ¬cond0_1 i) (x0 : Vec F S1024x512 .f32) (x1 : Vec F S1024x512 .f32) (x2 : Vec F S16x512 .f32) (x3 : Vec F S1x1024 .f32) (x4 : Vec F S1024x16 .f32) (xo5 : Vec F S1024x1024 .f32) (xs0 : Vec F S1024x16 .f32) :
    out0_B_5 c i arg3 harg3 arg4 harg4 arg5 harg5 arg6 harg6 arg7 harg7 arg8 harg8 arg9 harg9 hc0 hc1 x0 x1 x2 x3 x4 xo5 xs0 = k0_pay5 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

/-- The rank-16 accumulator gains this step's products over what the step before left. -/
theorem sout_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : ¬cond0_1 i) (x0 : Vec F S1024x512 .f32) (x1 : Vec F S1024x512 .f32) (x2 : Vec F S16x512 .f32) (x3 : Vec F S1x1024 .f32) (x4 : Vec F S1024x16 .f32) (xo5 : Vec F S1024x1024 .f32) (xs0 : Vec F S1024x16 .f32) :
    sout0_B_0 c i arg3 harg3 arg4 harg4 arg5 harg5 arg6 harg6 arg7 harg7 arg8 harg8 arg9 harg9 hc0 hc1 x0 x1 x2 x3 x4 xo5 xs0 = k0_pay4 x0 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

/-! ## The first step: both accumulators are reset, read back, and added into -/

/-- The output tile is this step's products over the zero tile. -/
theorem out_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : cond0_0 i) (hc1 : ¬cond0_1 i) (x0 : Vec F S1024x512 .f32) (x1 : Vec F S1024x512 .f32) (x2 : Vec F S16x512 .f32) (x3 : Vec F S1x1024 .f32) (x4 : Vec F S1024x16 .f32) :
    out0_A_5 c i arg3 harg3 arg4 harg4 arg5 harg5 arg6 harg6 arg7 harg7 arg8 harg8 arg9 harg9 hc0 hc1 x0 x1 x2 x3 x4 = k0_pay5 x0 x1 k0_pay1 := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readCov_unit_zero (S := S1024x16) _ hz, View.readCov_unit_zero (S := S1024x1024) _ hz, View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

/-- The rank-16 accumulator is this step's products over the zero block. -/
theorem sout_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : cond0_0 i) (hc1 : ¬cond0_1 i) (x0 : Vec F S1024x512 .f32) (x1 : Vec F S1024x512 .f32) (x2 : Vec F S16x512 .f32) (x3 : Vec F S1x1024 .f32) (x4 : Vec F S1024x16 .f32) :
    sout0_A_0 c i arg3 harg3 arg4 harg4 arg5 harg5 arg6 harg6 arg7 harg7 arg8 harg8 arg9 harg9 hc0 hc1 x0 x1 x2 x3 x4 = k0_pay4 x0 x2 k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x16) hz]
  simp only [View.readCov_unit_zero (S := S1024x16) _ hz, View.readCov_unit_zero (S := S1024x1024) _ hz, View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

/-! ## The last step: both accumulators gain their products, then the output tile gains the bias and the up projection -/

/-- The output tile: the last store's value, over the accumulators as this same step left them. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : cond0_1 i) (x0 : Vec F S1024x512 .f32) (x1 : Vec F S1024x512 .f32) (x2 : Vec F S16x512 .f32) (x3 : Vec F S1x1024 .f32) (x4 : Vec F S1024x16 .f32) (xo5 : Vec F S1024x1024 .f32) (xs0 : Vec F S1024x16 .f32) :
    out0_C_5 c i arg3 harg3 arg4 harg4 arg5 harg5 arg6 harg6 arg7 harg7 arg8 harg8 arg9 harg9 hc0 hc1 x0 x1 x2 x3 x4 xo5 xs0 = k0_pay6 (k0_pay4 x0 x2 xs0) x4 x3 (k0_pay5 x0 x1 xo5) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S1024x1024) hz]
  simp only [View.readCov_unit_zero (S := S1024x16) _ hz, View.readCov_unit_zero (S := S1024x1024) _ hz, View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

/-- The rank-16 accumulator gains this step's products. -/
theorem sout_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1x1024 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : cond0_1 i) (x0 : Vec F S1024x512 .f32) (x1 : Vec F S1024x512 .f32) (x2 : Vec F S16x512 .f32) (x3 : Vec F S1x1024 .f32) (x4 : Vec F S1024x16 .f32) (xo5 : Vec F S1024x1024 .f32) (xs0 : Vec F S1024x16 .f32) :
    sout0_C_0 c i arg3 harg3 arg4 harg4 arg5 harg5 arg6 harg6 arg7 harg7 arg8 harg8 arg9 harg9 hc0 hc1 x0 x1 x2 x3 x4 xo5 xs0 = k0_pay4 x0 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S16x512) hz, View.ld_unit_zero (S := S1x1024) hz, View.ld_unit_zero (S := S1024x16) hz, View.ld_unit_zero (S := S1024x1024) hz]

end Cert.KernelIdeal.Pieces

end
-- ==== Proof.Steps.lean ====
/-
  What the output tile's buffer and the rank-16 accumulator hold after the body at a grid point, as the body's stored
  values applied to the point's blocks and to what the point before left — one equation for each of the three kinds of
  point along the contraction axis (first step, middle step, last step), at any float instance.
-/
import proofs.«130091_j16561393893679_2_alg».proof.Proof.Pieces

set_option maxRecDepth 16384

noncomputable section

namespace Cert.KernelIdeal.Steps

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- At a first step of the contraction both accumulators restart from zero. -/
theorem first_step (c : Dev nD) (t : Fin cfg0.N) (h0 : t.val % 8 = 0) (h1 : ¬t.val % 8 = 7) :
    outsAt0 m c t.val t.isLt
      = (k0_pay5 (iblk m c 0 t) (iblk m c 1 t) k0_pay1, k0_pay4 (iblk m c 0 t) (iblk m c 2 t) k0_pay2) := by
  rw [outsAt0_A m c t h0 h1]
  refine Prod.ext ?_ ?_
  · dsimp only
    exact Pieces.out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  · dsimp only
    exact Pieces.sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At a middle step both accumulators continue from what the point before left. -/
theorem middle_step (c : Dev nD) (t : Fin cfg0.N) (h0 : ¬t.val % 8 = 0) (h1 : ¬t.val % 8 = 7) :
    outsAt0 m c t.val t.isLt
      = (k0_pay5 (iblk m c 0 t) (iblk m c 1 t) (outsAt0 m c (t.val - 1) (Nat.lt_of_le_of_lt (Nat.sub_le _ _) t.isLt)).1,
         k0_pay4 (iblk m c 0 t) (iblk m c 2 t) (outsAt0 m c (t.val - 1) (Nat.lt_of_le_of_lt (Nat.sub_le _ _) t.isLt)).2) := by
  rw [outsAt0_B m c t h0 h1]
  refine Prod.ext ?_ ?_
  · dsimp only
    exact Pieces.out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  · dsimp only
    exact Pieces.sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

/-- At the last step both accumulators continue, and the output tile then gains the bias and the up projection of the
    rank-16 accumulator as this step leaves it. -/
theorem last_step (c : Dev nD) (t : Fin cfg0.N) (h0 : ¬t.val % 8 = 0) (h1 : t.val % 8 = 7) :
    outsAt0 m c t.val t.isLt
      = (k0_pay6 (k0_pay4 (iblk m c 0 t) (iblk m c 2 t) (outsAt0 m c (t.val - 1) (Nat.lt_of_le_of_lt (Nat.sub_le _ _) t.isLt)).2) (iblk m c 4 t) (iblk m c 3 t)
            (k0_pay5 (iblk m c 0 t) (iblk m c 1 t) (outsAt0 m c (t.val - 1) (Nat.lt_of_le_of_lt (Nat.sub_le _ _) t.isLt)).1),
         k0_pay4 (iblk m c 0 t) (iblk m c 2 t) (outsAt0 m c (t.val - 1) (Nat.lt_of_le_of_lt (Nat.sub_le _ _) t.isLt)).2) := by
  rw [outsAt0_C m c t h0 h1]
  refine Prod.ext ?_ ?_
  · dsimp only
    exact Pieces.out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  · dsimp only
    exact Pieces.sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2

end Cert.KernelIdeal.Steps

end
-- ==== Proof.Payloads.lean ====
/-
  What the kernel body's stores hold, entry by entry, over the extended reals.

  The body has five stored values. Two are zero blocks (the output tile and the rank-16 accumulator at the first step of
  the contraction). Two add to an accumulator the product of the 1024 × 512 tile of tokens with a tile stored with its
  contracted axis last, [N, 512]: entry (p, q) gains  ∑ e < 512, x[p, e] · w[q, e]. The last one adds to the output
  tile the bias row and the product of the accumulated down projection [1024, 16] with the tile [1024, 16] of the scaled
  up projection: entry (p, q) gains  bias[0, q] + ∑ r < 16, h[p, r] · b[q, r]. A change of float format is the identity
  on extended reals, and a matrix product into the zero accumulator is the plain sum of products.
-/
import proofs.«130091_j16561393893679_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- In a product of an [M, K] block with an [N, K] block contracted on their last axes, the first operand is read at the
    output's row … -/
theorem rows_lhs_row (M K N : ℕ) (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and the second at the output's column, as ITS row. -/
theorem rows_rhs_row (M K N : ℕ) (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- A matrix product of an [M, K] block with an [N, K] block, both contracted on their last axis, into the zero block:
    entry (p, q) is the sum over the contracted coordinate of the products of row p of the first with row q of the second. -/
theorem matmul_rows_apply (M K N : ℕ) {φ₁ φ₂ : FTy}
    (l : FVec Ideal ⟨2, ![M, K]⟩ φ₁) (r : FVec Ideal ⟨2, ![N, K]⟩ φ₂) (p : Fin M) (q : Fin N) :
    FloatOps.matmul (DotDims.transposedRhs M K N) none l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rows_lhs_row M K N _ _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rows_rhs_row M K N _ _
      | ⟨1, _⟩ => exact ((DotDims.transposedRhs M K N).rhsIdx_val_of_single rfl _ _).trans hk)
  rw [el, er]

/-- The output tile's reset value is zero everywhere. -/
theorem zeroTile_apply (j : S1024x1024.Idx) : k0_pay1 (F := Ideal) j = 0 := Ideal.ofBits_zero_f32

/-- The rank-16 accumulator's reset value is zero everywhere. -/
theorem zeroAcc_apply (j : S1024x16.Idx) : k0_pay2 (F := Ideal) j = 0 := by
  unfold k0_pay2
  rw [shapeCast_self]
  exact Ideal.ofBits_zero_f32

/-- The accumulated down projection after a step: the accumulator plus this tile's 512 products. -/
theorem downStep_apply (x0 : Vec Ideal S1024x512 .f32) (x2 : Vec Ideal S16x512 .f32) (acc : Vec Ideal S1024x16 .f32)
    (p : Fin 1024) (r : Fin 16) :
    k0_pay4 x0 x2 acc (ix2 p r) = acc (ix2 p r) + ∑ e : Fin 512, x0 (ix2 p e) * x2 (ix2 r e) := by
  unfold k0_pay4 k0_pay3
  simp only [shapeCast_self]
  exact congrArg (acc (ix2 p r) + ·) (matmul_rows_apply 1024 512 16 _ _ p r)

/-- The output tile after a step: the tile plus this step's 512 products of tokens with frozen weights. -/
theorem denseStep_apply (x0 : Vec Ideal S1024x512 .f32) (x1 : Vec Ideal S1024x512 .f32) (acc : Vec Ideal S1024x1024 .f32)
    (p : Fin 1024) (q : Fin 1024) :
    k0_pay5 x0 x1 acc (ix2 p q) = acc (ix2 p q) + ∑ e : Fin 512, x0 (ix2 p e) * x1 (ix2 q e) := by
  unfold k0_pay5 k0_pay3
  simp only [shapeCast_self]
  exact congrArg (acc (ix2 p q) + ·) (matmul_rows_apply 1024 512 1024 _ _ p q)

/-- The bias row broadcast over the 1024 rows of a tile reads the row's entry of the column. -/
theorem biasRow_apply (bias : Vec Ideal S1x1024 .f32) (p : Fin 1024) (q : Fin 1024) :
    broadcastTo S1024x1024 bias broadcasts_S1x1024_S1024x1024 (ix2 p q) = bias (ix2 0 q) :=
  broadcastTo_apply bias broadcasts_S1x1024_S1024x1024 (ix2 p q) (ix2 0 q) (fun a => by
    match a with
    | ⟨0, _⟩ => rfl
    | ⟨1, _⟩ => rfl)

/-- The output tile at the last step: the tile plus the bias entry plus the 16 products of the accumulated down
    projection with the scaled up projection. -/
theorem lastStep_apply (h : Vec Ideal S1024x16 .f32) (bs : Vec Ideal S1024x16 .f32) (bias : Vec Ideal S1x1024 .f32)
    (o : Vec Ideal S1024x1024 .f32) (p : Fin 1024) (q : Fin 1024) :
    k0_pay6 h bs bias o (ix2 p q) = o (ix2 p q) + (bias (ix2 0 q) + ∑ r : Fin 16, h (ix2 p r) * bs (ix2 q r)) := by
  unfold k0_pay6
  simp only [shapeCast_self]
  refine congrArg (o (ix2 p q) + ·) ?_
  exact congrArg₂ (· + ·) (biasRow_apply bias p q) (matmul_rows_apply 1024 16 1024 _ _ p q)

end Cert.KernelIdeal.Pay

end
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.Spec.lean ====
/-
  The adapter layer as a function of its five arrays, entry by entry, over the extended reals, in the two groupings the
  two programs compute it in, and the contraction over 4096 features walked in eight tiles of 512.

  For a token (b, s) and an output feature n:
    dense  = ∑ d, x[b,s,d] · W[n,d]                      (the frozen projection)
    down_r = ∑ d, x[b,s,d] · A[r,d]        (r < 16)      (the low-rank down projection)
  one program forms  (dense + bias[n]) + c · ∑ r, down_r · B[n,r],
  the other          dense + (bias[n] + ∑ r, down_r · (c · B[n,r])),
  with c the scale alpha / rank = 16 / 16, the float 1.0. Addition on the extended reals is associative, and 1 is the unit of
  their product at every value, the two infinities included, so the two agree with no finiteness assumed.
-/
import Idealize.ShloMosaic.Lib.ValueIdx
import Idealize.ShloMosaic.PureOps.Ideal.Laws
import proofs.«130091_j16561393893679_2_alg».proof.Proof.LibTileSum

noncomputable section

namespace Cert.Adapter

open Idealize.ShloMosaic Idealize.ShloMosaic.ValueIdx Finset

/-- The shapes of the five arrays and of the result. -/
abbrev Tok : Shape := ⟨3, ![2, 4096, 4096]⟩
abbrev Sq : Shape := ⟨2, ![4096, 4096]⟩
abbrev Dn : Shape := ⟨2, ![16, 4096]⟩
abbrev Up : Shape := ⟨2, ![4096, 16]⟩
abbrev Vc : Shape := ⟨1, ![4096]⟩

/-- The scale alpha / rank as both programs spell it: the float 1.0. -/
abbrev scale : EReal := Ideal.ofBits .f32 0x3F800000#32

/-- It is the extended real 1. -/
theorem scale_eq_one : scale = 1 := IdealRules.sign_bit.ideal_onePat .f32

/-! ## A contraction over 4096 walked in tiles of 512 -/

/-- The first `K` tiles of 512 terms of a 4096-term sum. -/
def tiled (f : Fin 4096 → EReal) (K : ℕ) : EReal :=
  ∑ kk ∈ range K, ∑ e ∈ range 512, (if h : kk * 512 + e < 4096 then f ⟨kk * 512 + e, h⟩ else 0)

/-- No tile: the empty sum. -/
theorem tiled_zero (f : Fin 4096 → EReal) : tiled f 0 = 0 := by
  unfold tiled; rw [sum_range_zero]

/-- One more tile adds that tile's 512 terms. -/
theorem tiled_succ (f : Fin 4096 → EReal) (K : ℕ) :
    tiled f (K + 1) = tiled f K + ∑ e ∈ range 512, (if h : K * 512 + e < 4096 then f ⟨K * 512 + e, h⟩ else 0) := by
  unfold tiled; rw [sum_range_succ]

/-- All eight tiles: the whole sum. -/
theorem tiled_eight (f : Fin 4096 → EReal) : tiled f 8 = ∑ d : Fin 4096, f d :=
  (TileSum.sum_fin_eq_tiles (n := 4096) (T := 8) (B := 512) (by decide) f).symm

/-- Tile `K` (`K < 8`) of the sum, from its 512 terms given one by one. -/
theorem tile_eq (f : Fin 4096 → EReal) (K : ℕ) (hK : K < 8) (g : Fin 512 → EReal)
    (hg : ∀ (e : Fin 512) (h : K * 512 + e.val < 4096), g e = f ⟨K * 512 + e.val, h⟩) :
    ∑ e : Fin 512, g e = ∑ e ∈ range 512, (if h : K * 512 + e < 4096 then f ⟨K * 512 + e, h⟩ else 0) := by
  rw [← Fin.sum_univ_eq_sum_range (fun e => if h : K * 512 + e < 4096 then f ⟨K * 512 + e, h⟩ else 0) 512]
  refine Fintype.sum_congr _ _ fun e => ?_
  have he : K * 512 + e.val < 4096 := by have := e.isLt; omega
  rw [dif_pos he]; exact hg e he

/-! ## The layer, entry by entry -/

section
variable (x : Tok.Idx → EReal) (W : Sq.Idx → EReal) (A : Dn.Idx → EReal) (B : Up.Idx → EReal) (bias : Vc.Idx → EReal)

/-- The frozen projection of token (b, s) onto output feature n. -/
def dense (b : Fin 2) (s : Fin 4096) (n : Fin 4096) : EReal := ∑ d : Fin 4096, x (ix3 b s d) * W (ix2 n d)

/-- The low-rank down projection of token (b, s) onto rank coordinate r. -/
def down (b : Fin 2) (s : Fin 4096) (r : Fin 16) : EReal := ∑ d : Fin 4096, x (ix3 b s d) * A (ix2 r d)

/-- The layer grouped as the reference computes it. -/
def layerRef (b : Fin 2) (s : Fin 4096) (n : Fin 4096) : EReal :=
  (dense x W b s n + bias (ix1 n)) + scale * ∑ r : Fin 16, down x A b s r * B (ix2 n r)

/-- The layer grouped as the kernel computes it. -/
def layerKer (b : Fin 2) (s : Fin 4096) (n : Fin 4096) : EReal :=
  dense x W b s n + (bias (ix1 n) + ∑ r : Fin 16, down x A b s r * (scale * B (ix2 n r)))

/-- The two groupings are one extended real: associativity of the sum, and the scale is the unit of the product. -/
theorem layerKer_eq_layerRef (b : Fin 2) (s : Fin 4096) (n : Fin 4096) :
    layerKer x W A B bias b s n = layerRef x W A B bias b s n := by
  unfold layerKer layerRef
  rw [scale_eq_one, one_mul, add_assoc]
  simp only [one_mul]

end

end Cert.Adapter

end
-- ==== Proof.Blocks.lean ====
/-
  Where the kernel's blocks come from: which entries of its array each window's block holds at a grid point, and what
  the arrays the host prepares before the launch hold in terms of the program's arguments (the tokens flattened to
  [8192, 4096], the up projection scaled by alpha / rank, the bias as a one-row matrix).
-/
import proofs.«130091_j16561393893679_2_alg».proof.Proof.Gen.KernelIdeal.Frame
import proofs.«130091_j16561393893679_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (m : (ℓ : Loc nD τ sig) → Buf (Elt F) ℓ)

/-! ## Where each window's block sits in its array

The grid is 8 × 4 × 8, walked with the last axis fastest: point `t` is token tile `t / 32`, feature tile
`t / 8 % 4`, contraction step `t % 8`. -/

theorem idx_facts : ∀ t : Fin cfg0.N,
    win0_0.index t (0 : Fin 2) = t.val / 32 ∧ win0_0.index t (1 : Fin 2) = t.val % 8 ∧
    win0_1.index t (0 : Fin 2) = t.val / 8 % 4 ∧ win0_1.index t (1 : Fin 2) = t.val % 8 ∧
    win0_2.index t (0 : Fin 2) = 0 ∧ win0_2.index t (1 : Fin 2) = t.val % 8 ∧
    win0_3.index t (0 : Fin 2) = 0 ∧ win0_3.index t (1 : Fin 2) = t.val / 8 % 4 ∧
    win0_4.index t (0 : Fin 2) = t.val / 8 % 4 ∧ win0_4.index t (1 : Fin 2) = 0 ∧
    win0_5.index t (0 : Fin 2) = t.val / 32 ∧ win0_5.index t (1 : Fin 2) = t.val / 8 % 4 :=
  (by decide +kernel : ∀ t : Fin grid0.N,
    win0_0.index t (0 : Fin 2) = t.val / 32 ∧ win0_0.index t (1 : Fin 2) = t.val % 8 ∧
    win0_1.index t (0 : Fin 2) = t.val / 8 % 4 ∧ win0_1.index t (1 : Fin 2) = t.val % 8 ∧
    win0_2.index t (0 : Fin 2) = 0 ∧ win0_2.index t (1 : Fin 2) = t.val % 8 ∧
    win0_3.index t (0 : Fin 2) = 0 ∧ win0_3.index t (1 : Fin 2) = t.val / 8 % 4 ∧
    win0_4.index t (0 : Fin 2) = t.val / 8 % 4 ∧ win0_4.index t (1 : Fin 2) = 0 ∧
    win0_5.index t (0 : Fin 2) = t.val / 32 ∧ win0_5.index t (1 : Fin 2) = t.val / 8 % 4)

/-- The token tile at a point: rows `t / 32 · 1024 + p`, features `t % 8 · 512 + e` of the flattened tokens. -/
theorem tokens_block (c : Dev nD) (t : Fin cfg0.N) (p : Fin 1024) (e : Fin 512) (R : Fin 8192) (D : Fin 4096)
    (hR : R.val = t.val / 32 * 1024 + p.val) (hD : D.val = t.val % 8 * 512 + e.val) :
    iblk m c 0 t (ix2 p e) = V m c main_v0 (ix2 R D) := by
  obtain ⟨h00, h01, -⟩ := idx_facts t
  unfold iblk
  rw [View.read_apply]
  show V m c main_v0 _ = V m c main_v0 _
  congr 1
  funext a
  apply Fin.ext
  match a with
  | ⟨0, _⟩ => show win0_0.index t 0 * 1024 + 1 * p.val = R.val; rw [h00, hR]; omega
  | ⟨1, _⟩ => show win0_0.index t 1 * 512 + 1 * e.val = D.val; rw [h01, hD]; omega

/-- The frozen-weight tile at a point: output features `t / 8 % 4 · 1024 + q`, input features `t % 8 · 512 + e`. -/
theorem frozen_block (c : Dev nD) (t : Fin cfg0.N) (q : Fin 1024) (e : Fin 512) (C : Fin 4096) (D : Fin 4096)
    (hC : C.val = t.val / 8 % 4 * 1024 + q.val) (hD : D.val = t.val % 8 * 512 + e.val) :
    iblk m c 1 t (ix2 q e) = V m c main_arg1 (ix2 C D) := by
  obtain ⟨-, -, h10, h11, -⟩ := idx_facts t
  unfold iblk
  rw [View.read_apply]
  show V m c main_arg1 _ = V m c main_arg1 _
  congr 1
  funext a
  apply Fin.ext
  match a with
  | ⟨0, _⟩ => show win0_1.index t 0 * 1024 + 1 * q.val = C.val; rw [h10, hC]; omega
  | ⟨1, _⟩ => show win0_1.index t 1 * 512 + 1 * e.val = D.val; rw [h11, hD]; omega

/-- The down-projection tile at a point: all 16 rank rows, input features `t % 8 · 512 + e`. -/
theorem down_block (c : Dev nD) (t : Fin cfg0.N) (r : Fin 16) (e : Fin 512) (D : Fin 4096)
    (hD : D.val = t.val % 8 * 512 + e.val) :
    iblk m c 2 t (ix2 r e) = V m c main_arg2 (ix2 r D) := by
  obtain ⟨-, -, -, -, h20, h21, -⟩ := idx_facts t
  unfold iblk
  rw [View.read_apply]
  show V m c main_arg2 _ = V m c main_arg2 _
  congr 1
  funext a
  apply Fin.ext
  match a with
  | ⟨0, _⟩ => show win0_2.index t 0 * 16 + 1 * r.val = r.val; rw [h20]; omega
  | ⟨1, _⟩ => show win0_2.index t 1 * 512 + 1 * e.val = D.val; rw [h21, hD]; omega

/-- The bias tile at a point: the one row, output features `t / 8 % 4 · 1024 + q`. -/
theorem bias_block (c : Dev nD) (t : Fin cfg0.N) (q : Fin 1024) (C : Fin 4096)
    (hC : C.val = t.val / 8 % 4 * 1024 + q.val) :
    iblk m c 3 t (ix2 0 q) = V m c main_v3 (ix2 0 C) := by
  obtain ⟨-, -, -, -, -, -, h30, h31, -⟩ := idx_facts t
  unfold iblk
  rw [View.read_apply]
  show V m c main_v3 _ = V m c main_v3 _
  congr 1
  funext a
  apply Fin.ext
  match a with
  | ⟨0, _⟩ => show win0_3.index t 0 * 1 + 1 * 0 = 0; rw [h30]
  | ⟨1, _⟩ => show win0_3.index t 1 * 1024 + 1 * q.val = C.val; rw [h31, hC]; omega

/-- The scaled up-projection tile at a point: output features `t / 8 % 4 · 1024 + q`, all 16 rank columns. -/
theorem up_block (c : Dev nD) (t : Fin cfg0.N) (q : Fin 1024) (r : Fin 16) (C : Fin 4096)
    (hC : C.val = t.val / 8 % 4 * 1024 + q.val) :
    iblk m c 4 t (ix2 q r) = V m c main_v2 (ix2 C r) := by
  obtain ⟨-, -, -, -, -, -, -, -, h40, h41, -⟩ := idx_facts t
  unfold iblk
  rw [View.read_apply]
  show V m c main_v2 _ = V m c main_v2 _
  congr 1
  funext a
  apply Fin.ext
  match a with
  | ⟨0, _⟩ => show win0_4.index t 0 * 1024 + 1 * q.val = C.val; rw [h40, hC]; omega
  | ⟨1, _⟩ => show win0_4.index t 1 * 16 + 1 * r.val = r.val; rw [h41]; omega

/-! ## The arrays the host prepares before the launch -/

/-- The tokens flattened to [8192, 4096]: row `b · 4096 + s` is token (b, s). -/
theorem tokens_arr (c : Dev nD) (b : Fin 2) (s : Fin 4096) (D : Fin 4096) (R : Fin 8192) (hR : R.val = b.val * 4096 + s.val) :
    V m c main_v0 (ix2 R D) = m ((c : Thread nD τ).loc main_arg0) (ix3 b s D) := by
  have e : (V m c main_v0 : S8192x4096.Idx → Elt F .f32)
      = shapeCast S8192x4096 (m ((c : Thread nD τ).loc main_arg0)) shapeCasts_S2x4096x4096_S8192x4096 := by
    show StableHlo.after hostOps0 (fun b => m (c, b)) (Proc.devRef .tc main_v0) = _
    after_results
    rfl
  rw [e]
  refine shapeCast_apply _ _ _ _ ?_
  show (S2x4096x4096.rowMajor (ix3 b s D)).val = (S8192x4096.rowMajor (ix2 R D)).val
  rw [Shape.rowMajor_val_three, Shape.rowMajor_val_two]
  show (b.val * 4096 + s.val) * 4096 + D.val = R.val * 4096 + D.val
  rw [hR]

/-- The bias as a one-row matrix. -/
theorem bias_arr (c : Dev nD) (n : Fin 4096) :
    V m c main_v3 (ix2 0 n) = m ((c : Thread nD τ).loc main_arg4) (ix1 n) := by
  have e : (V m c main_v3 : S1x4096.Idx → Elt F .f32)
      = shapeCast S1x4096 (m ((c : Thread nD τ).loc main_arg4)) shapeCasts_S4096_S1x4096 := by
    show StableHlo.after hostOps0 (fun b => m (c, b)) (Proc.devRef .tc main_v3) = _
    after_results
    rfl
  rw [e]
  refine shapeCast_apply _ _ _ _ ?_
  show (S4096.rowMajor (ix1 n)).val = (S1x4096.rowMajor (ix2 0 n)).val
  rw [Shape.rowMajor_val_one, Shape.rowMajor_val_two]
  show n.val = 0 * 4096 + n.val
  omega

/-- The up projection scaled by alpha / rank, entry by entry, over the extended reals. -/
theorem up_arr (mI : (ℓ : Loc nD τ sig) → Buf (Elt Ideal) ℓ) (c : Dev nD) (n : Fin 4096) (r : Fin 16) :
    V mI c main_v2 (ix2 n r) = Cert.Adapter.scale * mI ((c : Thread nD τ).loc main_arg3) (ix2 n r) := by
  have e : (V mI c main_v2 : S4096x16.Idx → Elt Ideal .f32)
      = mulf (broadcastInDim S4096x16 ![] bcast_S_S4096x16 (constant (F := Ideal) S_ .f32 0x3F800000#32)) (mI ((c : Thread nD τ).loc main_arg3)) := by
    show StableHlo.after hostOps0 (fun b => mI (c, b)) (Proc.devRef .tc main_v2) = _
    after_results
  rw [e]
  rfl

end Cert.KernelIdeal.Blocks

end
-- ==== Proof.Accum.lean ====
/-
  The accumulation along the contraction axis of the grid, over the extended reals.

  Fix a row R of the flattened tokens and an output feature C. Along the eight steps of the contraction axis the output
  tile's entry for (R, C) holds the first k + 1 tiles of 512 terms of  ∑ d, x[R, d] · W[C, d], and the rank-16
  accumulator's entry for (R, r) the first k + 1 tiles of  ∑ d, x[R, d] · A[r, d]; after the last step the output
  entry holds the whole first sum plus the bias entry plus  ∑ r, (the whole second sum for r) · (scaled B)[C, r].
  By induction on the grid point: the first step of each run of eight starts from zero, a later step adds its tile to what
  the point before left, and the point before is in the same run (same token tile, same feature tile).
-/
import proofs.«130091_j16561393893679_2_alg».proof.Proof.Steps
import proofs.«130091_j16561393893679_2_alg».proof.Proof.Payloads
import proofs.«130091_j16561393893679_2_alg».proof.Proof.Blocks
import proofs.«130091_j16561393893679_2_alg».proof.Proof.Spec

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.Adapter

/-! ## One tile of a contraction, over any arrays -/

/-- Term `d` of the contraction of row `R` of the flattened tokens `X` with row `C` of a matrix `Wt` stored with the
    contracted axis last. -/
def denseTerm (X : Vec Ideal S8192x4096 .f32) (Wt : Vec Ideal S4096x4096 .f32) (R : Fin 8192) (C : Fin 4096) (d : Fin 4096) : EReal :=
  X (ix2 R d) * Wt (ix2 C d)

/-- The same against row `r` of the rank-16 matrix `Ad`. -/
def downTerm (X : Vec Ideal S8192x4096 .f32) (Ad : Vec Ideal S16x4096 .f32) (R : Fin 8192) (r : Fin 16) (d : Fin 4096) : EReal :=
  X (ix2 R d) * Ad (ix2 r d)

/-- The 512 products of a token tile `x0` with a weight tile `x1`, tiles that hold columns `K · 512 + e` of rows
    `R` and `C` of their arrays, are tile `K` of the contraction. -/
theorem dense_tile (X : Vec Ideal S8192x4096 .f32) (Wt : Vec Ideal S4096x4096 .f32) (K : ℕ) (hK : K < 8)
    (x0 x1 : Vec Ideal S1024x512 .f32) (p q : Fin 1024) (R : Fin 8192) (C : Fin 4096)
    (h0 : ∀ (e : Fin 512) (D : Fin 4096), D.val = K * 512 + e.val → x0 (ix2 p e) = X (ix2 R D))
    (h1 : ∀ (e : Fin 512) (D : Fin 4096), D.val = K * 512 + e.val → x1 (ix2 q e) = Wt (ix2 C D)) :
    ∑ e : Fin 512, x0 (ix2 p e) * x1 (ix2 q e)
      = ∑ e ∈ Finset.range 512, (if h : K * 512 + e < 4096 then denseTerm X Wt R C ⟨K * 512 + e, h⟩ else 0) :=
  tile_eq (denseTerm X Wt R C) K hK (fun e => x0 (ix2 p e) * x1 (ix2 q e)) (fun e h => by
    show x0 (ix2 p e) * x1 (ix2 q e) = X (ix2 R ⟨K * 512 + e.val, h⟩) * Wt (ix2 C ⟨K * 512 + e.val, h⟩)
    rw [h0 e ⟨K * 512 + e.val, h⟩ rfl, h1 e ⟨K * 512 + e.val, h⟩ rfl])

/-- Likewise for the rank-16 tile. -/
theorem down_tile (X : Vec Ideal S8192x4096 .f32) (Ad : Vec Ideal S16x4096 .f32) (K : ℕ) (hK : K < 8)
    (x0 : Vec Ideal S1024x512 .f32) (x2 : Vec Ideal S16x512 .f32) (p : Fin 1024) (r : Fin 16) (R : Fin 8192)
    (h0 : ∀ (e : Fin 512) (D : Fin 4096), D.val = K * 512 + e.val → x0 (ix2 p e) = X (ix2 R D))
    (h2 : ∀ (e : Fin 512) (D : Fin 4096), D.val = K * 512 + e.val → x2 (ix2 r e) = Ad (ix2 r D)) :
    ∑ e : Fin 512, x0 (ix2 p e) * x2 (ix2 r e)
      = ∑ e ∈ Finset.range 512, (if h : K * 512 + e < 4096 then downTerm X Ad R r ⟨K * 512 + e, h⟩ else 0) :=
  tile_eq (downTerm X Ad R r) K hK (fun e => x0 (ix2 p e) * x2 (ix2 r e)) (fun e h => by
    show x0 (ix2 p e) * x2 (ix2 r e) = X (ix2 R ⟨K * 512 + e.val, h⟩) * Ad (ix2 r ⟨K * 512 + e.val, h⟩)
    rw [h0 e ⟨K * 512 + e.val, h⟩ rfl, h2 e ⟨K * 512 + e.val, h⟩ rfl])

/-! ## The two accumulators along the grid -/

variable (m : (ℓ : Loc nD τ sig) → Buf (Elt Ideal) ℓ)

/-- One step of the output tile: an entry holding the first `t % 8` tiles holds the first `t % 8 + 1` after it. -/
theorem dense_step (c : Dev nD) (t : Fin cfg0.N) (acc : Vec Ideal S1024x1024 .f32) (p q : Fin 1024) (R : Fin 8192) (C : Fin 4096)
    (hR : R.val = t.val / 32 * 1024 + p.val) (hC : C.val = t.val / 8 % 4 * 1024 + q.val)
    (hacc : acc (ix2 p q) = tiled (denseTerm (V m c main_v0) (V m c main_arg1) R C) (t.val % 8)) :
    k0_pay5 (iblk m c 0 t) (iblk m c 1 t) acc (ix2 p q) = tiled (denseTerm (V m c main_v0) (V m c main_arg1) R C) (t.val % 8 + 1) := by
  refine (Pay.denseStep_apply (iblk m c 0 t) (iblk m c 1 t) acc p q).trans ?_
  rw [tiled_succ, hacc]
  exact congrArg (tiled (denseTerm (V m c main_v0) (V m c main_arg1) R C) (t.val % 8) + ·)
    (dense_tile (V m c main_v0) (V m c main_arg1) (t.val % 8) (Nat.mod_lt _ (by decide)) (iblk m c 0 t) (iblk m c 1 t) p q R C
      (fun e D hD => Blocks.tokens_block m c t p e R D hR hD) (fun e D hD => Blocks.frozen_block m c t q e C D hC hD))

/-- One step of the rank-16 accumulator. -/
theorem down_step (c : Dev nD) (t : Fin cfg0.N) (acc : Vec Ideal S1024x16 .f32) (p : Fin 1024) (r : Fin 16) (R : Fin 8192)
    (hR : R.val = t.val / 32 * 1024 + p.val)
    (hacc : acc (ix2 p r) = tiled (downTerm (V m c main_v0) (V m c main_arg2) R r) (t.val % 8)) :
    k0_pay4 (iblk m c 0 t) (iblk m c 2 t) acc (ix2 p r) = tiled (downTerm (V m c main_v0) (V m c main_arg2) R r) (t.val % 8 + 1) := by
  refine (Pay.downStep_apply (iblk m c 0 t) (iblk m c 2 t) acc p r).trans ?_
  rw [tiled_succ, hacc]
  exact congrArg (tiled (downTerm (V m c main_v0) (V m c main_arg2) R r) (t.val % 8) + ·)
    (down_tile (V m c main_v0) (V m c main_arg2) (t.val % 8) (Nat.mod_lt _ (by decide)) (iblk m c 0 t) (iblk m c 2 t) p r R
      (fun e D hD => Blocks.tokens_block m c t p e R D hR hD) (fun e D hD => Blocks.down_block m c t r e D hD))

/-- What an entry of the output tile holds once the last step of a run has added the bias and the up projection. -/
def finished (Bs : Vec Ideal S4096x16 .f32) (bias : Vec Ideal S1x4096 .f32) (dn : EReal) (dw : Fin 16 → EReal) (C : Fin 4096) : EReal :=
  dn + (bias (ix2 0 C) + ∑ r : Fin 16, dw r * Bs (ix2 C r))

/-- An entry assembled from parts that are, one by one, the finished entry's parts. -/
theorem finished_of_parts (Bs : Vec Ideal S4096x16 .f32) (bias : Vec Ideal S1x4096 .f32) (o bq : EReal) (hv bv : Fin 16 → EReal)
    (dn : EReal) (dw : Fin 16 → EReal) (C : Fin 4096)
    (ho : o = dn) (hb : bq = bias (ix2 0 C)) (hh : ∀ r, hv r = dw r) (hbs : ∀ r, bv r = Bs (ix2 C r)) :
    o + (bq + ∑ r : Fin 16, hv r * bv r) = finished Bs bias dn dw C := by
  unfold finished
  rw [ho, hb]
  exact congrArg (fun z => dn + (bias (ix2 0 C) + z)) (Finset.sum_congr rfl fun r _ => by rw [hh r, hbs r])

/-- What the two buffers hold after the body at grid point `n`. -/
structure Inv (c : Dev nD) (n : ℕ) (h : n < cfg0.N) : Prop where
  down : ∀ (p : Fin 1024) (r : Fin 16) (R : Fin 8192), R.val = n / 32 * 1024 + p.val →
    (outsAt0 m c n h).2 (ix2 p r) = tiled (downTerm (V m c main_v0) (V m c main_arg2) R r) (n % 8 + 1)
  dense : ¬n % 8 = 7 → ∀ (p q : Fin 1024) (R : Fin 8192) (C : Fin 4096), R.val = n / 32 * 1024 + p.val →
    C.val = n / 8 % 4 * 1024 + q.val → (outsAt0 m c n h).1 (ix2 p q) = tiled (denseTerm (V m c main_v0) (V m c main_arg1) R C) (n % 8 + 1)
  last : n % 8 = 7 → ∀ (p q : Fin 1024) (R : Fin 8192) (C : Fin 4096), R.val = n / 32 * 1024 + p.val →
    C.val = n / 8 % 4 * 1024 + q.val → (outsAt0 m c n h).1 (ix2 p q)
      = finished (V m c main_v2) (V m c main_v3) (tiled (denseTerm (V m c main_v0) (V m c main_arg1) R C) 8) (fun r => tiled (downTerm (V m c main_v0) (V m c main_arg2) R r) 8) C

/-- It holds at every point, by induction along the grid. -/
theorem inv (c : Dev nD) (n : ℕ) : ∀ h : n < cfg0.N, Inv m c n h := by
  induction n using Nat.strong_induction_on with
  | _ n ih =>
    intro h
    have hN : n < 256 := lt_of_lt_of_eq h (show cfg0.N = 256 from N_0)
    by_cases h0 : n % 8 = 0
    · -- the first step of a run: from zero
      have h1 : ¬n % 8 = 7 := by omega
      have e := Steps.first_step m c ⟨n, h⟩ h0 h1
      refine ⟨fun p r R hR => ?_, fun _ p q R C hR hC => ?_, fun h7 => absurd h7 h1⟩
      · refine (congrFun (congrArg Prod.snd e) (ix2 p r)).trans ?_
        refine down_step m c ⟨n, h⟩ (k0_pay2 (F := Ideal)) p r R hR ?_
        rw [show (⟨n, h⟩ : Fin cfg0.N).val % 8 = 0 from h0, tiled_zero]
        exact Pay.zeroAcc_apply _
      · refine (congrFun (congrArg Prod.fst e) (ix2 p q)).trans ?_
        refine dense_step m c ⟨n, h⟩ (k0_pay1 (F := Ideal)) p q R C hR hC ?_
        rw [show (⟨n, h⟩ : Fin cfg0.N).val % 8 = 0 from h0, tiled_zero]
        exact Pay.zeroTile_apply _
    · -- a later step: over what the point before, in the same run, left
      have hp' : n - 1 < cfg0.N := Nat.lt_of_le_of_lt (Nat.sub_le _ _) h
      have ihp := ih (n - 1) (by omega) hp'
      have hdown : ∀ (p : Fin 1024) (r : Fin 16) (R : Fin 8192), R.val = n / 32 * 1024 + p.val →
          k0_pay4 (iblk m c 0 ⟨n, h⟩) (iblk m c 2 ⟨n, h⟩) (outsAt0 m c (n - 1) hp').2 (ix2 p r) = tiled (downTerm (V m c main_v0) (V m c main_arg2) R r) (n % 8 + 1) :=
        fun p r R hR => down_step m c ⟨n, h⟩ (outsAt0 m c (n - 1) hp').2 p r R hR
          ((ihp.down p r R (by omega)).trans (congrArg (tiled (downTerm (V m c main_v0) (V m c main_arg2) R r)) (by show (n - 1) % 8 + 1 = n % 8; omega)))
      have hdense : ∀ (p q : Fin 1024) (R : Fin 8192) (C : Fin 4096), R.val = n / 32 * 1024 + p.val →
          C.val = n / 8 % 4 * 1024 + q.val →
          k0_pay5 (iblk m c 0 ⟨n, h⟩) (iblk m c 1 ⟨n, h⟩) (outsAt0 m c (n - 1) hp').1 (ix2 p q) = tiled (denseTerm (V m c main_v0) (V m c main_arg1) R C) (n % 8 + 1) :=
        fun p q R C hR hC => dense_step m c ⟨n, h⟩ (outsAt0 m c (n - 1) hp').1 p q R C hR hC
          ((ihp.dense (by omega) p q R C (by omega) (by omega)).trans
            (congrArg (tiled (denseTerm (V m c main_v0) (V m c main_arg1) R C)) (by show (n - 1) % 8 + 1 = n % 8; omega)))
      by_cases h1 : n % 8 = 7
      · have e := Steps.last_step m c ⟨n, h⟩ h0 h1
        refine ⟨fun p r R hR => ?_, fun h7 => absurd h1 h7, fun _ p q R C hR hC => ?_⟩
        · exact (congrFun (congrArg Prod.snd e) (ix2 p r)).trans (hdown p r R hR)
        · refine (congrFun (congrArg Prod.fst e) (ix2 p q)).trans ?_
          refine (Pay.lastStep_apply (k0_pay4 (iblk m c 0 ⟨n, h⟩) (iblk m c 2 ⟨n, h⟩) (outsAt0 m c (n - 1) hp').2) (iblk m c 4 ⟨n, h⟩) (iblk m c 3 ⟨n, h⟩)
            (k0_pay5 (iblk m c 0 ⟨n, h⟩) (iblk m c 1 ⟨n, h⟩) (outsAt0 m c (n - 1) hp').1) p q).trans ?_
          have e8 : n % 8 + 1 = 8 := by omega
          exact finished_of_parts (V m c main_v2) (V m c main_v3) _ _
            (fun r => k0_pay4 (iblk m c 0 ⟨n, h⟩) (iblk m c 2 ⟨n, h⟩) (outsAt0 m c (n - 1) hp').2 (ix2 p r)) (fun r => iblk m c 4 ⟨n, h⟩ (ix2 q r))
            (tiled (denseTerm (V m c main_v0) (V m c main_arg1) R C) 8) (fun r => tiled (downTerm (V m c main_v0) (V m c main_arg2) R r) 8) C
            ((hdense p q R C hR hC).trans (congrArg (tiled (denseTerm (V m c main_v0) (V m c main_arg1) R C)) e8))
            (Blocks.bias_block m c ⟨n, h⟩ q C hC)
            (fun r => (hdown p r R hR).trans (congrArg (tiled (downTerm (V m c main_v0) (V m c main_arg2) R r)) e8))
            (fun r => Blocks.up_block m c ⟨n, h⟩ q r C hC)
      · have e := Steps.middle_step m c ⟨n, h⟩ h0 h1
        refine ⟨fun p r R hR => ?_, fun _ p q R C hR hC => ?_, fun h7 => absurd h7 h1⟩
        · exact (congrFun (congrArg Prod.snd e) (ix2 p r)).trans (hdown p r R hR)
        · exact (congrFun (congrArg Prod.fst e) (ix2 p q)).trans (hdense p q R C hR hC)

end Cert.KernelIdeal.Accum

end
-- ==== Proof.Result.lean ====
/-
  What the kernel's run leaves in its result, over the extended reals.

  Each of the 32 output tiles is written back once, after the last of its eight contraction steps, and the 32 tiles cover
  the [8192, 4096] result array; so entry (R, C) of that array is the whole contraction  ∑ d, x[R, d] · W[C, d]  walked in
  eight tiles, plus the bias entry, plus the 16-term product of the whole down projection with the scaled up projection.
  The host then reshapes the array to [2, 4096, 4096]: entry (b, s, n) is entry (b · 4096 + s, n). In terms of the
  program's arguments that is the layer in the kernel's grouping.
-/
import proofs.«130091_j16561393893679_2_alg».proof.Proof.Accum

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.Adapter Cert.KernelIdeal.Accum
open Idealize.ShloMosaic.Pipeline (Dat)

variable (m : (ℓ : Loc nD τ sig) → Buf (Elt Ideal) ℓ) (ρ : Dev nD → PrngReg)

/-- Entry (R, C) of the kernel's [8192, 4096] result. -/
def entry (c : Dev nD) (R : Fin 8192) (C : Fin 4096) : EReal :=
  (finished (V m c main_v2) (V m c main_v3) (tiled (denseTerm (V m c main_v0) (V m c main_arg1) R C) 8) (fun r => tiled (downTerm (V m c main_v0) (V m c main_arg2) R r) 8) C)

/-- The [8192, 4096] result as an array. -/
def result2d (c : Dev nD) : Vec Ideal S8192x4096 .f32 := fun i => entry m c (i 0) (i 1)

/-- An index of the result array is in point `t`'s output block iff each coordinate is in the block's range. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v4).slice (win0_5.rect t)).set ↔ _
  rw [View.set_slice_whole, Rect.mem_set_unit]
  exact Iff.rfl

/-- What a point that writes its output tile back writes: the tile's entries of the result array. -/
theorem flushed_eq (c : Dev nD) (t : Fin cfg0.N) (hf : (cfg0.win 5).flush t = true) :
    (dats m 0 c).flushed 5 t = ((cfg0.win 5).blk t).view.read (Elt Ideal) (result2d m c) := by
  have h7 : t.val % 8 = 7 := (flush0_5 t).mp hf
  have hN : t.val < 256 := lt_of_lt_of_eq t.isLt (show cfg0.N = 256 from N_0)
  obtain ⟨-, -, -, -, -, -, -, -, -, -, h50, h51⟩ := Blocks.idx_facts t
  show (cfg0.win 5).cut (grid0.coords t) ((dats m 0 c).after 5 t) = _
  rw [after0_5]
  funext j
  obtain ⟨p, q, rfl⟩ : ∃ (p : Fin 1024) (q : Fin 1024), j = ix2 p q := ⟨j 0, j 1, eq_ix2 j⟩
  have hR : t.val / 32 * 1024 + p.val < 8192 := by have := p.isLt; omega
  have hC : t.val / 8 % 4 * 1024 + q.val < 4096 := by have := q.isLt; omega
  have hemb : ((cfg0.win 5).blk t).view.emb (ix2 p q)
      = ix2 (⟨t.val / 32 * 1024 + p.val, hR⟩ : Fin 8192) (⟨t.val / 8 % 4 * 1024 + q.val, hC⟩ : Fin 4096) := by
    funext a
    apply Fin.ext
    match a with
    | ⟨0, _⟩ => show win0_5.index t (0 : Fin 2) * 1024 + 1 * p.val = t.val / 32 * 1024 + p.val; rw [h50]; omega
    | ⟨1, _⟩ => show win0_5.index t (1 : Fin 2) * 1024 + 1 * q.val = t.val / 8 % 4 * 1024 + q.val; rw [h51]; omega
  show (outsAt0 m c t.val t.isLt).1 (ix2 p q) = result2d m c (((cfg0.win 5).blk t).view.emb (ix2 p q))
  rw [hemb]
  exact (Accum.inv m c t.val t.isLt).last h7 p q ⟨_, hR⟩ ⟨_, hC⟩ rfl rfl

/-- Every entry of the result array is in the output block of the last step of its tile's run. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  have ht : (i 0).val / 1024 * 32 + (i 1).val / 1024 * 8 + 7 < cfg0.N := by omega
  refine ⟨⟨(i 0).val / 1024 * 32 + (i 1).val / 1024 * 8 + 7, ht⟩, (flush0_5 _).mpr (by show ((i 0).val / 1024 * 32 + (i 1).val / 1024 * 8 + 7) % 8 = 7; omega), ?_⟩
  obtain ⟨-, -, -, -, -, -, -, -, -, -, h50, h51⟩ := Blocks.idx_facts ⟨(i 0).val / 1024 * 32 + (i 1).val / 1024 * 8 + 7, ht⟩
  rw [mem_blk]
  intro a
  match a with
  | ⟨0, _⟩ =>
    show win0_5.index _ (0 : Fin 2) * 1024 ≤ (i 0).val ∧ (i 0).val < win0_5.index _ (0 : Fin 2) * 1024 + 1024
    rw [h50]; dsimp only; omega
  | ⟨1, _⟩ =>
    show win0_5.index _ (1 : Fin 2) * 1024 ≤ (i 1).val ∧ (i 1).val < win0_5.index _ (1 : Fin 2) * 1024 + 1024
    rw [h51]; dsimp only; omega

/-- So the result array ends holding `result2d`. -/
theorem final (c : Dev nD) : (dats m 0 c).arrAt 5 cfg0.N = result2d m c :=
  (dats m 0 c).arrAt_eq_of_cover 5 (result2d m c) (flushed_eq m c) cover

/-- The program's result: the array reshaped to [2, 4096, 4096]. -/
def result3d (c : Dev nD) : Vec Ideal S2x4096x4096 .f32 :=
  shapeCast S2x4096x4096 (result2d m c) shapeCasts_S8192x4096_S2x4096x4096

/-- The host's reshape after the launch reads the result array the run left. -/
theorem tail_eq (c : Dev nD) :
    Pipeline.afterTail₀ cfgs (dats m) 0 (V0 m) [hostOps1] c main_v5 = result3d m c := by
  unfold Pipeline.afterTail₀
  show StableHlo.after hostOps1 _ (Proc.devRef .tc main_v5) = _
  after_results
  exact congrArg (fun x => shapeCast S2x4096x4096 x shapeCasts_S8192x4096_S2x4096x4096)
    ((Pipeline.withArrays_arr spec0 launch0.win.arr_inj c _ _ 5).trans (final m c))

/-- The run: every weakly fair execution ends with the program's result at `result3d` and the arguments unchanged. -/
theorem run : θ_run defs (onTc (τ := τ) (main (F := Ideal))) ⟨m, fun _ => 0, ρ⟩ fun r => ∀ c : Dev nD,
      r.2.mem ((c.tc : Thread nD τ).loc main_v5) = result3d m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## In terms of the program's arguments -/

/-- An entry of the result array, for the row of token (b, s), is the layer in the kernel's grouping. -/
theorem entry_eq (c : Dev nD) (b : Fin 2) (s n : Fin 4096) (R : Fin 8192) (hR : R.val = b.val * 4096 + s.val) :
    entry m c R n = layerKer (m ((c : Thread nD τ).loc main_arg0)) (m ((c : Thread nD τ).loc main_arg1))
      (m ((c : Thread nD τ).loc main_arg2)) (m ((c : Thread nD τ).loc main_arg3)) (m ((c : Thread nD τ).loc main_arg4)) b s n := by
  unfold entry
  refine (finished_of_parts _ _ _ _ _ _ _ _ n rfl rfl (fun r => rfl) (fun r => rfl)).symm.trans ?_
  unfold layerKer
  refine congrArg₂ (· + ·) ?_ (congrArg₂ (· + ·) (Blocks.bias_arr m c n) (Finset.sum_congr rfl fun r _ => congrArg₂ (· * ·) ?_ (Blocks.up_arr m c n r)))
  · rw [tiled_eight]
    unfold dense denseTerm
    exact Finset.sum_congr rfl fun d _ => congrArg₂ (· * ·) (Blocks.tokens_arr m c b s d R hR) (by rw [V_main_arg1])
  · rw [tiled_eight]
    unfold down downTerm
    exact Finset.sum_congr rfl fun d _ => congrArg₂ (· * ·) (Blocks.tokens_arr m c b s d R hR) (by rw [V_main_arg2])

/-- The program's result at (b, s, n) is the layer in the kernel's grouping. -/
theorem result_apply (c : Dev nD) (b : Fin 2) (s n : Fin 4096) :
    result3d m c (ix3 b s n) = layerKer (m ((c : Thread nD τ).loc main_arg0)) (m ((c : Thread nD τ).loc main_arg1))
      (m ((c : Thread nD τ).loc main_arg2)) (m ((c : Thread nD τ).loc main_arg3)) (m ((c : Thread nD τ).loc main_arg4)) b s n := by
  have hR : b.val * 4096 + s.val < 8192 := by have := b.isLt; have := s.isLt; omega
  unfold result3d
  rw [shapeCast_apply (result2d m c) shapeCasts_S8192x4096_S2x4096x4096 (ix3 b s n) (ix2 ⟨b.val * 4096 + s.val, hR⟩ n) (by
    rw [Shape.rowMajor_val_two, Shape.rowMajor_val_three]; rfl)]
  exact entry_eq m c b s n ⟨_, hR⟩ rfl

/-- So the program's result is the layer, in the reference's grouping too, at every index. -/
theorem result_eq (c : Dev nD) :
    result3d m c = fun i => layerRef (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  funext i
  obtain ⟨b, s, n, rfl⟩ : ∃ (b : Fin 2) (s n : Fin 4096), i = ix3 b s n := ⟨i 0, i 1, i 2, eq_ix3 i⟩
  exact (result_apply m c b s n).trans (layerKer_eq_layerRef _ _ _ _ _ b s n)

end Cert.KernelIdeal.Result

end
-- ==== Proof.RefRead.lean ====
/-
  The reference's result, entry by entry: for a token (b, s) and an output feature n it is the frozen projection plus the
  bias, plus the scale times the 16-term product of the down projection with the up projection — the layer in the
  reference's own grouping.
-/
import proofs.«130091_j16561393893679_2_alg».proof.Proof.Gen.ReferenceIdeal.Read
import proofs.«130091_j16561393893679_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Adapter

/-- The reference's result at (b, s, n) is the layer in the reference's grouping. -/
theorem result_apply (x0 : FVec Ideal S2x4096x4096 .f32) (x1 : FVec Ideal S4096x4096 .f32) (x2 : FVec Ideal S16x4096 .f32)
    (x3 : FVec Ideal S4096x16 .f32) (x4 : FVec Ideal S4096 .f32) (b : Fin 2) (s n : Fin 4096) :
    val_main_v8 (F := Ideal) x0 x1 x2 x3 x4 (ix3 b s n) = layerRef x0 x1 x2 x3 x4 b s n := by
  have e0l : ∀ k : Fin 4096, lidx_main_v0 (ix3 b s n) k = ix3 b s k := fun k => funext fun a => Fin.ext (by
    match a with | ⟨0, _⟩ => rfl | ⟨1, _⟩ => rfl | ⟨2, _⟩ => rfl)
  have e0r : ∀ k : Fin 4096, ridx_main_v0 (ix3 b s n) k = ix2 n k := fun k => funext fun a => Fin.ext (by
    match a with | ⟨0, _⟩ => rfl | ⟨1, _⟩ => rfl)
  have e1 : idx_main_v1 (idx_main_v2 (ix3 b s n)) = ix1 n := funext fun a => Fin.ext (by
    match a with | ⟨0, _⟩ => rfl)
  have e5l : ∀ r : Fin 16, lidx_main_v5 (ix3 b s n) r = ix3 b s r := fun r => funext fun a => Fin.ext (by
    match a with | ⟨0, _⟩ => rfl | ⟨1, _⟩ => rfl | ⟨2, _⟩ => rfl)
  have e5r : ∀ r : Fin 16, ridx_main_v5 (ix3 b s n) r = ix2 n r := fun r => funext fun a => Fin.ext (by
    match a with | ⟨0, _⟩ => rfl | ⟨1, _⟩ => rfl)
  have e4l : ∀ (r : Fin 16) (k : Fin 4096), lidx_main_v4 (ix3 b s r) k = ix3 b s k := fun r k => funext fun a => Fin.ext (by
    match a with | ⟨0, _⟩ => rfl | ⟨1, _⟩ => rfl | ⟨2, _⟩ => rfl)
  have e4r : ∀ (r : Fin 16) (k : Fin 4096), ridx_main_v4 (ix3 b s r) k = ix2 r k := fun r k => funext fun a => Fin.ext (by
    match a with | ⟨0, _⟩ => rfl | ⟨1, _⟩ => rfl)
  rw [val_main_v8_apply, val_main_v3_apply, val_main_v0_apply, val_main_v2_apply, val_main_v1_apply, val_main_v7_apply,
    val_main_v6_apply, val_main_cst_apply, val_main_v5_apply]
  simp only [e5l, e5r, val_main_v4_apply, e0l, e0r, e1, e4l, e4r]
  rfl

/-- So the reference's result array is the layer at every index. -/
theorem result_eq (x0 : FVec Ideal S2x4096x4096 .f32) (x1 : FVec Ideal S4096x4096 .f32) (x2 : FVec Ideal S16x4096 .f32)
    (x3 : FVec Ideal S4096x16 .f32) (x4 : FVec Ideal S4096 .f32) :
    val_main_v8 (F := Ideal) x0 x1 x2 x3 x4 = fun i => layerRef x0 x1 x2 x3 x4 (i 0) (i 1) (i 2) := by
  funext i
  obtain ⟨b, s, n, rfl⟩ : ∃ (b : Fin 2) (s n : Fin 4096), i = ix3 b s n := ⟨i 0, i 1, i 2, eq_ix3 i⟩
  exact result_apply x0 x1 x2 x3 x4 b s n

end Cert.ReferenceIdeal.RefValue

end
-- ==== Proof.lean ====
/-
  A fused low-rank adapter layer:  y = x·Wᵀ + bias + (alpha / rank) · (x·Aᵀ)·Bᵀ  over tokens x [2, 4096, 4096], frozen
  weights W [4096, 4096], a rank-16 pair A [16, 4096], B [4096, 16] and a bias [4096], with alpha / rank = 16 / 16.

  The kernel walks a grid of 8 token tiles × 4 feature tiles × 8 contraction steps. At every step it adds, into the
  output tile, the products of a 1024 × 512 tile of tokens with a 1024 × 512 tile of W, and into a rank-16 accumulator
  the products of the same tokens with a 16 × 512 tile of A; both accumulators are reset at a run's first step; at its
  last step the output tile also gains the bias row and the product of the rank-16 accumulator with a tile of B scaled by
  alpha / rank on the host beforehand. The reference takes the three contractions whole and scales their product
  afterwards.

  Over the extended reals the two results are one function of the arguments. Entry (b, s, n) of the kernel's result is
      ∑ d, x[b,s,d]·W[n,d]  +  ( bias[n] + ∑ r, (∑ d, x[b,s,d]·A[r,d]) · (1 · B[n,r]) ),
  each contraction over d being its eight tiles of 512 terms summed in turn from zero, and the reference's is
      ( ∑ d, x[b,s,d]·W[n,d] + bias[n] )  +  1 · ∑ r, (∑ d, x[b,s,d]·A[r,d]) · B[n,r].
  A sum cut into tiles is the sum, addition is associative, and 1 is the unit of the product at every extended real: no
  finiteness of the inputs is used. The idealization rewrote nothing, so there is nothing to preserve.

  The modules: Spec (the layer in both groupings; a contraction in tiles), Payloads (the body's stored values at an
  entry), Pieces and Steps (what each kind of grid point leaves in the two accumulators), Blocks (which entries of
  which array a block holds), Accum (the induction along the grid), Result (the result array, the host's reshape, the
  run), RefRead (the reference's result at an entry).
-/
import proofs.«130091_j16561393893679_2_alg».proof.Defs
import proofs.«130091_j16561393893679_2_alg».proof.Proof.Gen.Kernel
import proofs.«130091_j16561393893679_2_alg».proof.Proof.Gen.Kernel.Frame
import proofs.«130091_j16561393893679_2_alg».proof.Proof.Gen.KernelIdeal
import proofs.«130091_j16561393893679_2_alg».proof.Proof.Gen.KernelIdeal.Frame
import proofs.«130091_j16561393893679_2_alg».proof.Proof.Gen.ReferenceIdeal
import proofs.«130091_j16561393893679_2_alg».proof.Proof.Gen.ReferenceIdeal.Run
import proofs.«130091_j16561393893679_2_alg».proof.Proof.Gen.Pre_finite_inputs
import proofs.«130091_j16561393893679_2_alg».proof.Proof.Result
import proofs.«130091_j16561393893679_2_alg».proof.Proof.RefRead

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the layer of their (equal) arguments at every entry. -/
theorem algebraic : Cert.algebraic_KernelIdeal_ReferenceIdeal := by
  intro m ρ m' ρ' _ hagree
  refine ⟨fun c => Cert.KernelIdeal.Result.result3d m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result3d m c
  rw [Cert.ReferenceIdeal.Read.val_main_v8_eq, Cert.ReferenceIdeal.RefValue.result_eq, Cert.KernelIdeal.Result.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
